-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x64 : Shape := ⟨3, ![8, 2048, 64]⟩
abbrev S_ : Shape := ⟨0, ![]⟩

class Facts : Prop where
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel

variable [Facts]

def fn {F : FTy → Type} [FloatOps F] (main_arg0 : FVec F S8x2048x64 .f32) (main_arg1 : FVec F S8x2048x64 .f32) : IVec S_ 1 :=
  let main_v0 : FVec F S8x2048x64 .f32 := Host.absf main_arg0
  let main_cst : FVec F S_ .f32 := constant S_ .f32 0x7F800000#32
  let main_v1 : FVec F S8x2048x64 .f32 := broadcastInDim S8x2048x64 ![] bcast_S_S8x2048x64 main_cst
  let main_v2 : IVec S8x2048x64 1 := cmpf .olt main_v0 main_v1
  let main_c : IVec S_ 1 := constantI S_ 1 1#1
  let main_v3 : IVec S_ 1 := (fun x v => Host.reduce IntOp.andi x v reducesTo_S8x2048x64_S_d0_1_2 h_S_) main_v2 main_c
  let main_v4 : FVec F S8x2048x64 .f32 := Host.absf main_arg1
  let main_cst_0 : FVec F S_ .f32 := constant S_ .f32 0x7F800000#32
  let main_v5 : FVec F S8x2048x64 .f32 := broadcastInDim S8x2048x64 ![] bcast_S_S8x2048x64 main_cst_0
  let main_v6 : IVec S8x2048x64 1 := cmpf .olt main_v4 main_v5
  let main_c_1 : IVec S_ 1 := constantI S_ 1 1#1
  let main_v7 : IVec S_ 1 := (fun x v => Host.reduce IntOp.andi x v reducesTo_S8x2048x64_S_d0_1_2 h_S_) main_v6 main_c_1
  let main_v8 : IVec S_ 1 := andi main_v3 main_v7
  main_v8
-- ==== Kernel.lean ====
abbrev S8x2048x64 : Shape := ⟨3, ![8, 2048, 64]⟩
abbrev S8x2048x2048 : Shape := ⟨3, ![8, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S1x512 : Shape := ⟨2, ![1, 512]⟩
abbrev S1x512x1 : Shape := ⟨3, ![1, 512, 1]⟩

abbrev nBuf : Space → Nat
  | .hbm => 4
  | .vmem => 8
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x64, .f32⟩
  | .hbm, ⟨3, _⟩ => ⟨S8x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x512x64, .f32⟩
  | .local _ .vmem, ⟨5, _⟩ => ⟨S1x512x64, .f32⟩
  | .local _ .vmem, ⟨6, _⟩ => ⟨S1x512x2048, .f32⟩
  | .local _ .vmem, ⟨7, _⟩ => ⟨S1x512x2048, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x512x64_S1x512x64_0_0_0 : ∀ a, (![0, 0, 0] : Fin 3 → Nat) a + S1x512x64.size a ≤ S1x512x64.size a
  h_S1x512x64 : 0 < S1x512x64.numel
  inb_S1x2048x64_S1x2048x64_0_0_0 : ∀ a, (![0, 0, 0] : Fin 3 → Nat) a + S1x2048x64.size a ≤ S1x2048x64.size a
  h_S1x2048x64 : 0 < S1x2048x64.numel
  bitsLt_bf16_f32 : FTy.bits .bf16 < FTy.bits .f32
  reduces_S1x512x2048_S1x512 : S1x512x2048.Reduces [2] S1x512
  shapeCasts_S1x512_S1x512x1 : S1x512.ShapeCasts S1x512x1
  broadcasts_S1x512x1_S1x512x2048 : S1x512x1.Broadcasts S1x512x2048
  inb_S1x512x2048_S1x512x2048_0_0_0 : ∀ a, (![0, 0, 0] : Fin 3 → Nat) a + S1x512x2048.size a ≤ S1x512x2048.size a
  h_S1x512x2048 : 0 < S1x512x2048.numel
  broadcasts_S1x512x1_S1x512x64 : S1x512x1.Broadcasts S1x512x64
  dot_S1x512x64_S1x2048x64_S1x512x2048_2_2_1_1_0_0_wf : DotDims.WF S1x512x64 S1x2048x64 S1x512x2048 [2] [2] [1] [1] [0] [0]
  dot_S1x512x2048_S1x2048x64_S1x512x64_2_1_1_2_0_0_wf : DotDims.WF S1x512x2048 S1x2048x64 S1x512x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S8x2048x64.size a
  hwx0_0 : ∀ i : grid0.Coords, EltTy.bits .f32 = 32 ∨ (Rect.block (s := S8x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S8x2048x64.size a
  hwx0_1 : ∀ i : grid0.Coords, EltTy.bits .f32 = 32 ∨ (Rect.block (s := S8x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S8x2048x64.size a
  hwx0_2 : ∀ i : grid0.Coords, EltTy.bits .f32 = 32 ∨ (Rect.block (s := S8x2048x64) S1x512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x2048x2048.size a
  hwx0_3 : ∀ i : grid0.Coords, EltTy.bits .f32 = 32 ∨ (Rect.block (s := S8x2048x2048) S1x512x2048.size (cc0_transform_3 i) (hinb0_3 i)).WholeWords (EltTy.packing .f32)

variable [Facts₀]

def dot_S1x512x64_S1x2048x64_S1x512x2048_2_2_1_1_0_0 : DotDims S1x512x64 S1x2048x64 S1x512x2048 where
  lhsContracting := [2]
  rhsContracting := [2]
  lhsNonContracting := [1]
  rhsNonContracting := [1]
  lhsBatch := [0]
  rhsBatch := [0]
  wf := dot_S1x512x64_S1x2048x64_S1x512x2048_2_2_1_1_0_0_wf
def dot_S1x512x2048_S1x2048x64_S1x512x64_2_1_1_2_0_0 : DotDims S1x512x2048 S1x2048x64 S1x512x64 where
  lhsContracting := [2]
  rhsContracting := [1]
  lhsNonContracting := [1]
  rhsNonContracting := [2]
  lhsBatch := [0]
  rhsBatch := [0]
  wf := dot_S1x512x2048_S1x2048x64_S1x512x64_2_1_1_2_0_0_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x64 : Shape := ⟨3, ![8, 2048, 64]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x2048, .f32⟩
  | .hbm, ⟨3, _⟩ => ⟨S_, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S8x2048x1, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S8x2048x64, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.RowMath.lean ====
/-
  One row of softmax attention on the extended reals.

  For a row of scores `s j` the kernel and the reference both form the row maximum `M` (a fold of `max` from -∞), the
  numerators `e j = exp (s j - M)` and their sum `L`. The kernel multiplies by the reciprocal `1 / L` — the
  attention weight is `e j * (1 / L)`, the context entry `(∑ j, e j * v j) * (1 / L)` —, the reference divides
  first — the weight is `e j / L`, the context entry `∑ j, (e j / L) * v j`. When every score and every value is a
  real number, `M` is one of the scores, each `e j` is a positive real and so is `L`; division by `L` is then the
  product with the real `1 / L`, and the two context entries agree by distributivity in ℝ. (With an infinite entry
  the two forms can differ — `L = 0` gives `0 * ⊤` against a quotient by zero — which is why the finiteness of the
  inputs is used.)
-/
import Idealize.ShloMosaic.PureOps.Ideal.Laws

noncomputable section

namespace Cert.Attn

open Idealize.ShloMosaic

/-! ## The three float patterns the two programs spell -/

theorem ofBits_neginf : Ideal.ofBits .f32 0xFF800000#32 = (⊥ : EReal) := by
  simp [Ideal.ofBits, Ideal.ieee]

theorem ofBits_one : Ideal.ofBits .f32 0x3F800000#32 = (1 : EReal) := by
  simp [Ideal.ofBits, Ideal.ieee, -EReal.coe_mul]; norm_num

/-! ## A real sum read in the extended reals -/

theorem coe_sum {α : Type} (t : Finset α) (f : α → ℝ) :
    ((∑ a ∈ t, f a : ℝ) : EReal) = ∑ a ∈ t, (f a : EReal) := by
  classical
  induction t using Finset.induction_on with
  | empty => simp
  | insert a t ha ih => rw [Finset.sum_insert ha, Finset.sum_insert ha, EReal.coe_add, ih]

variable {ι : Type} [Fintype ι]

/-! ## The row's quantities, as each program writes them -/

/-- The row maximum: the fold of `max` over the row from the pattern of -∞. -/
def rmax (s : ι → EReal) : EReal := (Finset.univ : Finset ι).fold max (Ideal.ofBits .f32 0xFF800000#32) s

/-- The numerator at `j`: `exp (s j - M)`. -/
def num (s : ι → EReal) (j : ι) : EReal := Ideal.exp (s j - rmax s)

/-- The denominator: the sum of the numerators. -/
def den (s : ι → EReal) : EReal := ∑ j, num s j

/-- The kernel's attention weight: the numerator times the reciprocal of the denominator. -/
def attnK (s : ι → EReal) (j : ι) : EReal := num s j * Ideal.div (Ideal.ofBits .f32 0x3F800000#32) (den s)

/-- The kernel's context entry: the numerators' product with the value column, scaled once by the reciprocal. -/
def ctxK (s v : ι → EReal) : EReal := (∑ j, num s j * v j) * Ideal.div (Ideal.ofBits .f32 0x3F800000#32) (den s)

/-- The reference's numerator: it takes the maximum once more against -∞ before subtracting. -/
def numR (s : ι → EReal) (j : ι) : EReal := Ideal.exp (s j - max (Ideal.ofBits .f32 0xFF800000#32) (rmax s))

/-- The reference's denominator: its sum starts from the pattern of zero. -/
def denR (s : ι → EReal) : EReal := Ideal.ofBits .f32 0x00000000#32 + ∑ j, numR s j

/-- The reference's attention weight: the quotient. -/
def attnR (s : ι → EReal) (j : ι) : EReal := Ideal.div (numR s j) (denR s)

/-- The reference's context entry: the weights' product with the value column. -/
def ctxR (s v : ι → EReal) : EReal := ∑ j, attnR s j * v j

/-! ## On real rows the two forms agree -/

/-- The maximum of a nonempty row of reals is one of them. -/
theorem rmax_coe [Nonempty ι] (sr : ι → ℝ) : ∃ r : ℝ, rmax (fun j => (sr j : EReal)) = (r : EReal) := by
  unfold rmax
  rw [ofBits_neginf]
  obtain ⟨i, -, hi⟩ := Finset.exists_mem_eq_sup (Finset.univ : Finset ι) Finset.univ_nonempty (fun j => (sr j : EReal))
  exact ⟨sr i, hi⟩

/-- What both forms reduce to on a real row: real numerators `e j`, their positive real sum `L`. -/
theorem real_row [Nonempty ι] (sr : ι → ℝ) : ∃ (e : ι → ℝ) (L : ℝ), L ≠ 0
    ∧ (∀ j, num (fun j => (sr j : EReal)) j = (e j : EReal))
    ∧ (∀ j, numR (fun j => (sr j : EReal)) j = (e j : EReal))
    ∧ den (fun j => (sr j : EReal)) = (L : EReal)
    ∧ denR (fun j => (sr j : EReal)) = (L : EReal) ∧ L = ∑ j, e j := by
  obtain ⟨r, hr⟩ := rmax_coe sr
  have hnum : ∀ j, num (fun j => (sr j : EReal)) j = ((Real.exp (sr j - r) : ℝ) : EReal) := by
    intro j
    unfold num
    rw [hr]
    show Ideal.exp ((sr j : EReal) - (r : EReal)) = _
    rw [← EReal.coe_sub, Ideal.exp_coe]
  have hnumR : ∀ j, numR (fun j => (sr j : EReal)) j = ((Real.exp (sr j - r) : ℝ) : EReal) := by
    intro j
    unfold numR
    rw [ofBits_neginf, max_eq_right bot_le]
    exact hnum j
  have hpos : 0 < ∑ j, Real.exp (sr j - r) := Finset.sum_pos (fun j _ => Real.exp_pos _) Finset.univ_nonempty
  refine ⟨fun j => Real.exp (sr j - r), ∑ j, Real.exp (sr j - r), hpos.ne', hnum, hnumR, ?_, ?_, rfl⟩
  · unfold den
    rw [coe_sum]
    exact Finset.sum_congr rfl fun j _ => hnum j
  · unfold denR
    rw [Ideal.ofBits_zero_f32, zero_add, coe_sum]
    exact Finset.sum_congr rfl fun j _ => hnumR j

/-- The attention weights agree on a real row. -/
theorem attn_eq [Nonempty ι] (sr : ι → ℝ) (j : ι) :
    attnK (fun j => (sr j : EReal)) j = attnR (fun j => (sr j : EReal)) j := by
  obtain ⟨e, L, hL, hn, hnR, hd, hdR, -⟩ := real_row sr
  unfold attnK attnR
  rw [hn, hnR, hd, hdR, Ideal.div_coe hL, Ideal.div_coe hL, ofBits_one, one_mul]

/-- The context entries agree on a real row against a real value column. -/
theorem ctx_eq [Nonempty ι] (sr vr : ι → ℝ) :
    ctxK (fun j => (sr j : EReal)) (fun j => (vr j : EReal)) = ctxR (fun j => (sr j : EReal)) (fun j => (vr j : EReal)) := by
  obtain ⟨e, L, hL, hn, hnR, hd, hdR, -⟩ := real_row sr
  unfold ctxK ctxR attnR
  rw [hd, hdR, Ideal.div_coe hL, ofBits_one, one_mul]
  have hl : (∑ j, num (fun j => (sr j : EReal)) j * (vr j : EReal)) = ((∑ j, e j * vr j : ℝ) : EReal) := by
    rw [coe_sum]
    exact Finset.sum_congr rfl fun j _ => by rw [hn, EReal.coe_mul]
  have hr : (∑ j, Ideal.div (numR (fun j => (sr j : EReal)) j) (L : EReal) * (vr j : EReal))
      = ((∑ j, e j * (1 / L) * vr j : ℝ) : EReal) := by
    rw [coe_sum]
    exact Finset.sum_congr rfl fun j _ => by rw [hnR, Ideal.div_coe hL, EReal.coe_mul, EReal.coe_mul]
  rw [hl, hr, ← EReal.coe_mul, Finset.sum_mul]
  exact congrArg _ (Finset.sum_congr rfl fun j _ => by ring)

end Cert.Attn

end
-- ==== Proof.Body.lean ====
/-
  The kernel body's arithmetic, read one element at a time at the extended reals.

  At a grid point the body holds a query block `x0` of 512 rows and the batch's whole value block `x1` of 2048 rows
  (64 features each; the roundings to bf16 on the way into the two matrix products are the identity here). Row `r`
  of the scores is `s j = ∑ d, x0 (0, r, d) * x1 (0, j, d)`; the exponentials of the scores less the row maximum are
  the numerators; the reciprocal of their sum multiplies both what is stored to the attention block — at (0, r, j)
  the kernel form `attnK s j` of Proof/RowMath.lean — and what is stored to the context block — at (0, r, d) the
  kernel form `ctxK s` against column `d` of the value block.
-/
import proofs.«168999_j14869176779206_2_alg».proof.Proof.Gen.KernelIdeal.Skeleton
import proofs.«168999_j14869176779206_2_alg».proof.Proof.RowMath
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Attn

/-! ## Each non-pointwise operation of the body at an index -/

/-! ### The two matrix products' operand indices, coordinate by coordinate -/

theorem sc_l0 (i : S1x512x2048.Idx) (q : dot_S1x512x64_S1x2048x64_S1x512x2048_2_2_1_1_0_0.contr.Idx) :
    (dot_S1x512x64_S1x2048x64_S1x512x2048_2_2_1_1_0_0.lhsIdx i q 0).val = (i 0).val := by
  unfold DotDims.lhsIdx
  rw [dif_pos (show (0 : Fin S1x512x64.rank) ∈ dot_S1x512x64_S1x2048x64_S1x512x2048_2_2_1_1_0_0.lhsBatch by decide)]
  rfl

theorem sc_l1 (i : S1x512x2048.Idx) (q : dot_S1x512x64_S1x2048x64_S1x512x2048_2_2_1_1_0_0.contr.Idx) :
    (dot_S1x512x64_S1x2048x64_S1x512x2048_2_2_1_1_0_0.lhsIdx i q 1).val = (i 1).val := by
  unfold DotDims.lhsIdx
  rw [dif_neg (show ¬(1 : Fin S1x512x64.rank) ∈ dot_S1x512x64_S1x2048x64_S1x512x2048_2_2_1_1_0_0.lhsBatch by decide), dif_pos (show (1 : Fin S1x512x64.rank) ∈ dot_S1x512x64_S1x2048x64_S1x512x2048_2_2_1_1_0_0.lhsNonContracting by decide)]
  rfl

theorem sc_l2 (i : S1x512x2048.Idx) (q : dot_S1x512x64_S1x2048x64_S1x512x2048_2_2_1_1_0_0.contr.Idx) :
    (dot_S1x512x64_S1x2048x64_S1x512x2048_2_2_1_1_0_0.lhsIdx i q 2).val = (q ⟨0, by decide⟩).val :=
  dot_S1x512x64_S1x2048x64_S1x512x2048_2_2_1_1_0_0.lhsIdx_val_of_single rfl i q

theorem sc_r0 (i : S1x512x2048.Idx) (q : dot_S1x512x64_S1x2048x64_S1x512x2048_2_2_1_1_0_0.contr.Idx) :
    (dot_S1x512x64_S1x2048x64_S1x512x2048_2_2_1_1_0_0.rhsIdx i q 0).val = (i 0).val := by
  unfold DotDims.rhsIdx
  rw [dif_pos (show (0 : Fin S1x2048x64.rank) ∈ dot_S1x512x64_S1x2048x64_S1x512x2048_2_2_1_1_0_0.rhsBatch by decide)]
  rfl

theorem sc_r1 (i : S1x512x2048.Idx) (q : dot_S1x512x64_S1x2048x64_S1x512x2048_2_2_1_1_0_0.contr.Idx) :
    (dot_S1x512x64_S1x2048x64_S1x512x2048_2_2_1_1_0_0.rhsIdx i q 1).val = (i 2).val := by
  unfold DotDims.rhsIdx
  rw [dif_neg (show ¬(1 : Fin S1x2048x64.rank) ∈ dot_S1x512x64_S1x2048x64_S1x512x2048_2_2_1_1_0_0.rhsBatch by decide), dif_pos (show (1 : Fin S1x2048x64.rank) ∈ dot_S1x512x64_S1x2048x64_S1x512x2048_2_2_1_1_0_0.rhsNonContracting by decide)]
  rfl

theorem sc_r2 (i : S1x512x2048.Idx) (q : dot_S1x512x64_S1x2048x64_S1x512x2048_2_2_1_1_0_0.contr.Idx) :
    (dot_S1x512x64_S1x2048x64_S1x512x2048_2_2_1_1_0_0.rhsIdx i q 2).val = (q ⟨0, by decide⟩).val :=
  dot_S1x512x64_S1x2048x64_S1x512x2048_2_2_1_1_0_0.rhsIdx_val_of_single rfl i q

theorem mx_l0 (i : S1x512x64.Idx) (q : dot_S1x512x2048_S1x2048x64_S1x512x64_2_1_1_2_0_0.contr.Idx) :
    (dot_S1x512x2048_S1x2048x64_S1x512x64_2_1_1_2_0_0.lhsIdx i q 0).val = (i 0).val := by
  unfold DotDims.lhsIdx
  rw [dif_pos (show (0 : Fin S1x512x2048.rank) ∈ dot_S1x512x2048_S1x2048x64_S1x512x64_2_1_1_2_0_0.lhsBatch by decide)]
  rfl

theorem mx_l1 (i : S1x512x64.Idx) (q : dot_S1x512x2048_S1x2048x64_S1x512x64_2_1_1_2_0_0.contr.Idx) :
    (dot_S1x512x2048_S1x2048x64_S1x512x64_2_1_1_2_0_0.lhsIdx i q 1).val = (i 1).val := by
  unfold DotDims.lhsIdx
  rw [dif_neg (show ¬(1 : Fin S1x512x2048.rank) ∈ dot_S1x512x2048_S1x2048x64_S1x512x64_2_1_1_2_0_0.lhsBatch by decide), dif_pos (show (1 : Fin S1x512x2048.rank) ∈ dot_S1x512x2048_S1x2048x64_S1x512x64_2_1_1_2_0_0.lhsNonContracting by decide)]
  rfl

theorem mx_l2 (i : S1x512x64.Idx) (q : dot_S1x512x2048_S1x2048x64_S1x512x64_2_1_1_2_0_0.contr.Idx) :
    (dot_S1x512x2048_S1x2048x64_S1x512x64_2_1_1_2_0_0.lhsIdx i q 2).val = (q ⟨0, by decide⟩).val :=
  dot_S1x512x2048_S1x2048x64_S1x512x64_2_1_1_2_0_0.lhsIdx_val_of_single rfl i q

theorem mx_r0 (i : S1x512x64.Idx) (q : dot_S1x512x2048_S1x2048x64_S1x512x64_2_1_1_2_0_0.contr.Idx) :
    (dot_S1x512x2048_S1x2048x64_S1x512x64_2_1_1_2_0_0.rhsIdx i q 0).val = (i 0).val := by
  unfold DotDims.rhsIdx
  rw [dif_pos (show (0 : Fin S1x2048x64.rank) ∈ dot_S1x512x2048_S1x2048x64_S1x512x64_2_1_1_2_0_0.rhsBatch by decide)]
  rfl

theorem mx_r1 (i : S1x512x64.Idx) (q : dot_S1x512x2048_S1x2048x64_S1x512x64_2_1_1_2_0_0.contr.Idx) :
    (dot_S1x512x2048_S1x2048x64_S1x512x64_2_1_1_2_0_0.rhsIdx i q 1).val = (q ⟨0, by decide⟩).val :=
  dot_S1x512x2048_S1x2048x64_S1x512x64_2_1_1_2_0_0.rhsIdx_val_of_single rfl i q

theorem mx_r2 (i : S1x512x64.Idx) (q : dot_S1x512x2048_S1x2048x64_S1x512x64_2_1_1_2_0_0.contr.Idx) :
    (dot_S1x512x2048_S1x2048x64_S1x512x64_2_1_1_2_0_0.rhsIdx i q 2).val = (i 2).val := by
  unfold DotDims.rhsIdx
  rw [dif_neg (show ¬(2 : Fin S1x2048x64.rank) ∈ dot_S1x512x2048_S1x2048x64_S1x512x64_2_1_1_2_0_0.rhsBatch by decide), dif_pos (show (2 : Fin S1x2048x64.rank) ∈ dot_S1x512x2048_S1x2048x64_S1x512x64_2_1_1_2_0_0.rhsNonContracting by decide)]
  rfl

/-- The first matrix product at (0, r, j): row `r` of the left operand against row `j` of the right one, summed over the 64 features. -/
theorem scores_apply (lhs : FVec Ideal S1x512x64 .bf16) (rhs : FVec Ideal S1x2048x64 .bf16) (r : Fin 512) (j : Fin 2048) :
    matmul (F := Ideal) dot_S1x512x64_S1x2048x64_S1x512x2048_2_2_1_1_0_0 none lhs rhs (constant (F := Ideal) S1x512x2048 .f32 0x00000000#32) (ix3 (0 : Fin 1) r j)
      = ∑ d : Fin 64, lhs (ix3 (0 : Fin 1) r d) * rhs (ix3 (0 : Fin 1) j d) := by
  refine (Ideal.matmul_constant_zero_apply dot_S1x512x64_S1x2048x64_S1x512x2048_2_2_1_1_0_0 none lhs rhs (ix3 (0 : Fin 1) r j)).trans ?_
  rw [← Equiv.sum_comp (contrEquiv1 dot_S1x512x64_S1x2048x64_S1x512x2048_2_2_1_1_0_0 64 rfl rfl).symm]
  refine Finset.sum_congr rfl fun k _ => ?_
  have hk := contrEquiv1_symm_val dot_S1x512x64_S1x2048x64_S1x512x2048_2_2_1_1_0_0 64 rfl rfl k
  have el : dot_S1x512x64_S1x2048x64_S1x512x2048_2_2_1_1_0_0.lhsIdx (ix3 (0 : Fin 1) r j) ((contrEquiv1 dot_S1x512x64_S1x2048x64_S1x512x2048_2_2_1_1_0_0 64 rfl rfl).symm k) = ix3 (0 : Fin 1) r k := funext fun a => Fin.ext (by
    match a with
    | ⟨0, _⟩ => exact sc_l0 _ _
    | ⟨1, _⟩ => exact sc_l1 _ _
    | ⟨2, _⟩ => exact (sc_l2 _ _).trans hk)
  have er : dot_S1x512x64_S1x2048x64_S1x512x2048_2_2_1_1_0_0.rhsIdx (ix3 (0 : Fin 1) r j) ((contrEquiv1 dot_S1x512x64_S1x2048x64_S1x512x2048_2_2_1_1_0_0 64 rfl rfl).symm k) = ix3 (0 : Fin 1) j k := funext fun a => Fin.ext (by
    match a with
    | ⟨0, _⟩ => exact sc_r0 _ _
    | ⟨1, _⟩ => exact sc_r1 _ _
    | ⟨2, _⟩ => exact (sc_r2 _ _).trans hk)
  rw [el, er]

/-- The second matrix product at (0, r, d): row `r` of the left operand against column `d` of the right one, summed over the 2048 keys. -/
theorem mix_apply (lhs : FVec Ideal S1x512x2048 .bf16) (rhs : FVec Ideal S1x2048x64 .bf16) (r : Fin 512) (d : Fin 64) :
    matmul (F := Ideal) dot_S1x512x2048_S1x2048x64_S1x512x64_2_1_1_2_0_0 none lhs rhs (constant (F := Ideal) S1x512x64 .f32 0x00000000#32) (ix3 (0 : Fin 1) r d)
      = ∑ j : Fin 2048, lhs (ix3 (0 : Fin 1) r j) * rhs (ix3 (0 : Fin 1) j d) := by
  refine (Ideal.matmul_constant_zero_apply dot_S1x512x2048_S1x2048x64_S1x512x64_2_1_1_2_0_0 none lhs rhs (ix3 (0 : Fin 1) r d)).trans ?_
  rw [← Equiv.sum_comp (contrEquiv1 dot_S1x512x2048_S1x2048x64_S1x512x64_2_1_1_2_0_0 2048 rfl rfl).symm]
  refine Finset.sum_congr rfl fun k _ => ?_
  have hk := contrEquiv1_symm_val dot_S1x512x2048_S1x2048x64_S1x512x64_2_1_1_2_0_0 2048 rfl rfl k
  have el : dot_S1x512x2048_S1x2048x64_S1x512x64_2_1_1_2_0_0.lhsIdx (ix3 (0 : Fin 1) r d) ((contrEquiv1 dot_S1x512x2048_S1x2048x64_S1x512x64_2_1_1_2_0_0 2048 rfl rfl).symm k) = ix3 (0 : Fin 1) r k := funext fun a => Fin.ext (by
    match a with
    | ⟨0, _⟩ => exact mx_l0 _ _
    | ⟨1, _⟩ => exact mx_l1 _ _
    | ⟨2, _⟩ => exact (mx_l2 _ _).trans hk)
  have er : dot_S1x512x2048_S1x2048x64_S1x512x64_2_1_1_2_0_0.rhsIdx (ix3 (0 : Fin 1) r d) ((contrEquiv1 dot_S1x512x2048_S1x2048x64_S1x512x64_2_1_1_2_0_0 2048 rfl rfl).symm k) = ix3 (0 : Fin 1) k d := funext fun a => Fin.ext (by
    match a with
    | ⟨0, _⟩ => exact mx_r0 _ _
    | ⟨1, _⟩ => exact (mx_r1 _ _).trans hk
    | ⟨2, _⟩ => exact mx_r2 _ _)
  rw [el, er]

/-- Row `r` with key `k` put back on the reduced axis is (0, r, k). -/
theorem lift_row (r : Fin 512) (k : Fin (S1x512x2048.size 2)) :
    reduces_S1x512x2048_S1x512.lift (ix2 (0 : Fin 1) r) k = ix3 (0 : Fin 1) r (⟨k.val, k.isLt⟩ : Fin 2048) := by
  funext c; apply Fin.ext
  match c with
  | ⟨0, _⟩ => rfl
  | ⟨1, _⟩ => rfl
  | ⟨2, _⟩ => rfl

/-- The maximum over the keys at row `r`: the fold of `max` from -∞ over the row. -/
theorem rowmax_apply (src : FVec Ideal S1x512x2048 .f32) (r : Fin 512) :
    multiReduction (F := Ideal) .maximumf [2] S1x512 src 0xFF800000#32 reduces_S1x512x2048_S1x512 (.inl rfl) rfl (ix2 (0 : Fin 1) r)
      = rmax (fun j : Fin 2048 => src (ix3 (0 : Fin 1) r j)) := by
  refine (Ideal.multiReduction_maximumf_single src 0xFF800000#32 reduces_S1x512x2048_S1x512 (.inl rfl) rfl (ix2 (0 : Fin 1) r)).trans ?_
  unfold rmax
  exact congrArg (fun f : Fin 2048 → EReal => (Finset.univ : Finset (Fin 2048)).fold max (Ideal.ofBits .f32 0xFF800000#32) f)
    (funext fun k => congrArg src (lift_row r k))

/-- The sum over the keys at row `r`. -/
theorem rowsum_apply (src : FVec Ideal S1x512x2048 .f32) (r : Fin 512) :
    multiReduction (F := Ideal) .add [2] S1x512 src 0x00000000#32 reduces_S1x512x2048_S1x512 (.inl rfl) rfl (ix2 (0 : Fin 1) r)
      = ∑ j : Fin 2048, src (ix3 (0 : Fin 1) r j) := by
  refine (Ideal.multiReduction_add_single src 0x00000000#32 reduces_S1x512x2048_S1x512 (.inl rfl) rfl (ix2 (0 : Fin 1) r)).trans ?_
  exact Finset.sum_congr rfl fun k _ => congrArg src (lift_row r k)

/-- A per-row value cast to a column, at (0, r, 0), is the value of row `r`. -/
theorem col_apply (v : FVec Ideal S1x512 .f32) (r : Fin 512) :
    shapeCast S1x512x1 v shapeCasts_S1x512_S1x512x1 (ix3 (0 : Fin 1) r (0 : Fin 1)) = v (ix2 (0 : Fin 1) r) :=
  shapeCast_apply _ _ _ _ (by
    rw [Shape.rowMajor_val_two, Shape.rowMajor_val_three]
    show 0 * 512 + r.val = (0 * 512 + r.val) * 1 + 0
    omega)

/-- A column broadcast along the keys, at (0, r, j), is the column's entry of row `r`. -/
theorem wide_apply (v : FVec Ideal S1x512x1 .f32) (r : Fin 512) (j : Fin 2048) :
    broadcastTo S1x512x2048 v broadcasts_S1x512x1_S1x512x2048 (ix3 (0 : Fin 1) r j) = v (ix3 (0 : Fin 1) r (0 : Fin 1)) :=
  broadcastTo_apply _ _ _ _ (fun a => match a with
    | ⟨0, _⟩ => by show 0 = (if (1 : Nat) = 1 then 0 else 0); rw [if_pos rfl]
    | ⟨1, _⟩ => by show r.val = (if (512 : Nat) = 1 then 0 else r.val); rw [if_neg (by decide)]
    | ⟨2, _⟩ => by show 0 = (if (1 : Nat) = 1 then 0 else j.val); rw [if_pos rfl])

/-- A column broadcast along the features, at (0, r, d), is the column's entry of row `r`. -/
theorem feat_apply (v : FVec Ideal S1x512x1 .f32) (r : Fin 512) (d : Fin 64) :
    broadcastTo S1x512x64 v broadcasts_S1x512x1_S1x512x64 (ix3 (0 : Fin 1) r d) = v (ix3 (0 : Fin 1) r (0 : Fin 1)) :=
  broadcastTo_apply _ _ _ _ (fun a => match a with
    | ⟨0, _⟩ => by show 0 = (if (1 : Nat) = 1 then 0 else 0); rw [if_pos rfl]
    | ⟨1, _⟩ => by show r.val = (if (512 : Nat) = 1 then 0 else r.val); rw [if_neg (by decide)]
    | ⟨2, _⟩ => by show 0 = (if (1 : Nat) = 1 then 0 else d.val); rw [if_pos rfl])

/-! ## The body's stored values at an index -/

/-- Row `r` of the block's scores. -/
def bscore (x0 : FVec Ideal S1x512x64 .f32) (x1 : FVec Ideal S1x2048x64 .f32) (r : Fin 512) : Fin 2048 → EReal :=
  fun j => ∑ d : Fin 64, x0 (ix3 (0 : Fin 1) r d) * x1 (ix3 (0 : Fin 1) j d)

/-- The numerators at (0, r, j). -/
theorem numer_apply (x0 : FVec Ideal S1x512x64 .f32) (x1 : FVec Ideal S1x2048x64 .f32) (r : Fin 512) (j : Fin 2048) :
    k0_pay2 (F := Ideal) x0 x1 (ix3 (0 : Fin 1) r j) = num (bscore x0 x1 r) j := by
  unfold k0_pay2 k0_pay1 num
  refine congrArg Ideal.exp ?_
  refine congrArg₂ (· - ·) (scores_apply _ _ r j) ?_
  refine (wide_apply _ r j).trans ?_
  refine (col_apply _ r).trans ?_
  refine (rowmax_apply _ r).trans ?_
  exact congrArg rmax (funext fun j' => scores_apply _ _ r j')

/-- The reciprocal of the denominator, the column entry of row `r`. -/
theorem recip_apply (x0 : FVec Ideal S1x512x64 .f32) (x1 : FVec Ideal S1x2048x64 .f32) (r : Fin 512) :
    k0_pay3 (F := Ideal) x0 x1 (ix3 (0 : Fin 1) r (0 : Fin 1)) = Ideal.div (Ideal.ofBits .f32 0x3F800000#32) (den (bscore x0 x1 r)) := by
  unfold k0_pay3
  refine congrArg (Ideal.div (Ideal.ofBits .f32 0x3F800000#32)) ?_
  refine (col_apply _ r).trans ?_
  refine (rowsum_apply _ r).trans ?_
  unfold den
  exact Finset.sum_congr rfl fun j _ => numer_apply x0 x1 r j

/-- What is stored to the attention block at (0, r, j): the kernel-form weight. -/
theorem attn_apply (x0 : FVec Ideal S1x512x64 .f32) (x1 : FVec Ideal S1x2048x64 .f32) (r : Fin 512) (j : Fin 2048) :
    k0_pay4 (F := Ideal) x0 x1 (ix3 (0 : Fin 1) r j) = attnK (bscore x0 x1 r) j := by
  unfold k0_pay4 attnK
  exact congrArg₂ (· * ·) (numer_apply x0 x1 r j) ((wide_apply _ r j).trans (recip_apply x0 x1 r))

/-- What is stored to the context block at (0, r, d): the kernel-form entry against column `d` of the value block. -/
theorem ctx_apply (x0 : FVec Ideal S1x512x64 .f32) (x1 : FVec Ideal S1x2048x64 .f32) (r : Fin 512) (d : Fin 64) :
    k0_pay5 (F := Ideal) x0 x1 (ix3 (0 : Fin 1) r d) = ctxK (bscore x0 x1 r) (fun j => x1 (ix3 (0 : Fin 1) j d)) := by
  unfold k0_pay5 k0_pay1 ctxK
  refine congrArg₂ (· * ·) ?_ ((feat_apply _ r d).trans (recip_apply x0 x1 r))
  refine (mix_apply _ _ r d).trans ?_
  exact Finset.sum_congr rfl fun j _ => congrArg (· * x1 (ix3 (0 : Fin 1) j d)) (numer_apply x0 x1 r j)

end Cert.KernelIdeal.Body

end
-- ==== Proof.Spec.lean ====
/-
  The two results as whole-array functions of the query array `Q` and the value array `V` (both 8 × 2048 × 64).

  For batch `b` and query `r` the score row is `s j = ∑ d, Q (b, r, d) * V (b, j, d)`. The attention array at
  (b, r, j) is the row's weight at `j` and the context array at (b, r, d) is the row's weights against column `d` of
  batch `b`'s values — once in the kernel's form (multiply by the reciprocal of the denominator, the context scaled
  after its sum) and once in the reference's (divide each numerator first). On arrays of real numbers the two forms
  are the same arrays (Proof/RowMath.lean).
-/
import proofs.«168999_j14869176779206_2_alg».proof.Proof.RowMath
import Idealize.ShloMosaic.Lib.ValueIdx

noncomputable section

namespace Cert.Attn

open Idealize.ShloMosaic Idealize.ShloMosaic.ValueIdx

/-- The shape of the query, value and context arrays. -/
abbrev QV : Shape := ⟨3, ![8, 2048, 64]⟩
/-- The shape of the attention array. -/
abbrev AT : Shape := ⟨3, ![8, 2048, 2048]⟩

/-- The score row of batch `b`, query `r`. -/
def srow (Q V : QV.Idx → EReal) (b : Fin 8) (r : Fin 2048) : Fin 2048 → EReal :=
  fun j => ∑ d : Fin 64, Q (ix3 b r d) * V (ix3 b j d)

/-- Column `d` of batch `b`'s values. -/
def vcol (V : QV.Idx → EReal) (b : Fin 8) (d : Fin 64) : Fin 2048 → EReal := fun j => V (ix3 b j d)

/-- The attention array, kernel form. -/
def attnKer (Q V : QV.Idx → EReal) : AT.Idx → EReal := fun i => attnK (srow Q V (i 0) (i 1)) (i 2)
/-- The context array, kernel form. -/
def ctxKer (Q V : QV.Idx → EReal) : QV.Idx → EReal := fun i => ctxK (srow Q V (i 0) (i 1)) (vcol V (i 0) (i 2))
/-- The attention array, reference form. -/
def attnRef (Q V : QV.Idx → EReal) : AT.Idx → EReal := fun i => attnR (srow Q V (i 0) (i 1)) (i 2)
/-- The context array, reference form. -/
def ctxRef (Q V : QV.Idx → EReal) : QV.Idx → EReal := fun i => ctxR (srow Q V (i 0) (i 1)) (vcol V (i 0) (i 2))

/-- A score row of real arrays is a row of reals. -/
theorem srow_coe (Qr Vr : QV.Idx → ℝ) (b : Fin 8) (r : Fin 2048) :
    srow (fun i => (Qr i : EReal)) (fun i => (Vr i : EReal)) b r
      = fun j => ((∑ d : Fin 64, Qr (ix3 b r d) * Vr (ix3 b j d) : ℝ) : EReal) := by
  funext j
  unfold srow
  rw [coe_sum]
  exact Finset.sum_congr rfl fun d _ => (EReal.coe_mul _ _).symm

/-- On real arrays the attention arrays of the two forms are equal. -/
theorem attnKer_eq_attnRef (Qr Vr : QV.Idx → ℝ) :
    attnKer (fun i => (Qr i : EReal)) (fun i => (Vr i : EReal)) = attnRef (fun i => (Qr i : EReal)) (fun i => (Vr i : EReal)) := by
  funext i
  obtain ⟨b, r, j, rfl⟩ : ∃ (b : Fin 8) (r : Fin 2048) (j : Fin 2048), i = ix3 b r j := ⟨i 0, i 1, i 2, eq_ix3 i⟩
  show attnK (srow _ _ b r) j = attnR (srow _ _ b r) j
  rw [srow_coe]
  exact attn_eq _ j

/-- On real arrays the context arrays of the two forms are equal. -/
theorem ctxKer_eq_ctxRef (Qr Vr : QV.Idx → ℝ) :
    ctxKer (fun i => (Qr i : EReal)) (fun i => (Vr i : EReal)) = ctxRef (fun i => (Qr i : EReal)) (fun i => (Vr i : EReal)) := by
  funext i
  obtain ⟨b, r, d, rfl⟩ : ∃ (b : Fin 8) (r : Fin 2048) (d : Fin 64), i = ix3 b r d := ⟨i 0, i 1, i 2, eq_ix3 i⟩
  show ctxK (srow _ _ b r) (vcol _ b d) = ctxR (srow _ _ b r) (vcol _ b d)
  rw [srow_coe]
  exact ctx_eq _ (fun j => Vr (ix3 b j d))

/-- An array with no infinite entry is an array of reals. -/
theorem exists_real (X : QV.Idx → EReal) (h : ∀ i, X i ≠ ⊤ ∧ X i ≠ ⊥) : ∃ Xr : QV.Idx → ℝ, X = fun i => (Xr i : EReal) :=
  ⟨fun i => (X i).toReal, funext fun i => (EReal.coe_toReal (h i).1 (h i).2).symm⟩

end Cert.Attn

end
-- ==== Proof.Blocks.lean ====
/-
  From blocks to arrays: after the kernel's run the context array and the attention array are the kernel-form
  arrays of Proof/Spec.lean of the two argument arrays.

  The grid has 8 × 4 points; at point (b, q) the query window holds rows 512 q … 512 q + 511 of batch `b` of the
  query array, the value window holds all 2048 rows of batch `b` of the value array, and the two output windows
  cover rows 512 q … 512 q + 511 of batch `b` of the context and of the attention array. So row `r` of the block is
  row `R = 512 q + r` of the array, the block's score row is the array's score row of (b, R), and what the body
  stores at (0, r, ·) is the array function at (b, R, ·). Every index of either output array lies in the block of
  the point (b, R / 512), so the blocks cover both arrays.
-/
import proofs.«168999_j14869176779206_2_alg».proof.Proof.Gen.KernelIdeal.Value
import proofs.«168999_j14869176779206_2_alg».proof.Proof.Body
import proofs.«168999_j14869176779206_2_alg».proof.Proof.Spec

noncomputable section

namespace Cert.KernelIdeal.Blocks

open Cert.KernelIdeal Cert.KernelIdeal.Gen Cert.KernelIdeal.Value Cert.KernelIdeal.Body
open Idealize.ShloMosaic Idealize.ShloMosaic.TcCoe Idealize.SL.Sem Idealize.ShloMosaic.ValueIdx Cert.Attn
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-! ## What the body stores, as the array functions -/

/-- A query block whose row `r` is row (b, R) of `Q`, beside a value block that is batch `b` of `V`, has the arrays' score row. -/
theorem bscore_eq (Q V : QV.Idx → EReal) (x0 : FVec Ideal S1x512x64 .f32) (x1 : FVec Ideal S1x2048x64 .f32)
    (b : Fin 8) (r : Fin 512) (R : Fin 2048)
    (h0 : ∀ d : Fin 64, x0 (ix3 (0 : Fin 1) r d) = Q (ix3 b R d))
    (h1 : ∀ (j : Fin 2048) (d : Fin 64), x1 (ix3 (0 : Fin 1) j d) = V (ix3 b j d)) :
    bscore x0 x1 r = srow Q V b R := by
  funext j
  unfold bscore srow
  exact Finset.sum_congr rfl fun d _ => by rw [h0, h1]

/-- What the body stores to the context block at (0, r, d) is the context array at (b, R, d). -/
theorem ctx_block (Q V : QV.Idx → EReal) (x0 : FVec Ideal S1x512x64 .f32) (x1 : FVec Ideal S1x2048x64 .f32)
    (b : Fin 8) (r : Fin 512) (R : Fin 2048) (d : Fin 64)
    (h0 : ∀ d : Fin 64, x0 (ix3 (0 : Fin 1) r d) = Q (ix3 b R d))
    (h1 : ∀ (j : Fin 2048) (d : Fin 64), x1 (ix3 (0 : Fin 1) j d) = V (ix3 b j d)) :
    k0_pay5 (F := Ideal) x0 x1 (ix3 (0 : Fin 1) r d) = ctxKer Q V (ix3 b R d) := by
  rw [ctx_apply, bscore_eq Q V x0 x1 b r R h0 h1]
  show ctxK (srow Q V b R) _ = ctxK (srow Q V b R) (vcol V b d)
  exact congrArg (ctxK (srow Q V b R)) (funext fun j => h1 j d)

/-- What the body stores to the attention block at (0, r, j) is the attention array at (b, R, j). -/
theorem attn_block (Q V : QV.Idx → EReal) (x0 : FVec Ideal S1x512x64 .f32) (x1 : FVec Ideal S1x2048x64 .f32)
    (b : Fin 8) (r : Fin 512) (R : Fin 2048) (j : Fin 2048)
    (h0 : ∀ d : Fin 64, x0 (ix3 (0 : Fin 1) r d) = Q (ix3 b R d))
    (h1 : ∀ (j : Fin 2048) (d : Fin 64), x1 (ix3 (0 : Fin 1) j d) = V (ix3 b j d)) :
    k0_pay4 (F := Ideal) x0 x1 (ix3 (0 : Fin 1) r j) = attnKer Q V (ix3 b R j) := by
  rw [attn_apply, bscore_eq Q V x0 x1 b r R h0 h1]
  rfl

/-! ## The index maps over the grid -/

/-- Decided over the 32 points: the query window and both output windows sit at block (b, q, 0), the value window at (b, 0, 0). -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_3.index t (0 : Fin 3) = win0_2.index t (0 : Fin 3) ∧ win0_3.index t (1 : Fin 3) = win0_2.index t (1 : Fin 3)
    ∧ win0_3.index t (2 : Fin 3) = 0
    ∧ win0_2.index t (2 : Fin 3) = 0 ∧ win0_2.index t (0 : Fin 3) < 8 ∧ win0_2.index t (1 : Fin 3) < 4 :=
  (by decide +kernel : ∀ t : Fin grid0.N, _)

/-- Every block (b, q, 0) is some point's. -/
theorem idx_onto : ∀ (q0 : Fin 8) (q1 : Fin 4), ∃ t : Fin cfg0.N, win0_2.index t = ![q0.val, q1.val, 0] :=
  (by decide +kernel : ∀ (q0 : Fin 8) (q1 : Fin 4), ∃ t : Fin grid0.N, win0_2.index t = ![q0.val, q1.val, 0])

/-! ## The input blocks read off the arrays -/

/-- Row `r` of the query block at point `t` is row (b, R) of the query array. -/
theorem qblk_read (c : Dev nD) (t : Fin cfg0.N) (r : Fin 512) (d : Fin 64) (b : Fin 8) (R : Fin 2048)
    (hb : b.val = win0_2.index t (0 : Fin 3)) (hR : R.val = win0_2.index t (1 : Fin 3) * 512 + r.val) :
    iblk m c 0 t (ix3 (0 : Fin 1) r d) = V m c main_arg0 (ix3 b R d) := by
  obtain ⟨e00, e01, e02, -⟩ := idx_facts t
  show V m c main_arg0 (((cfg0.win 0).blk t).view.emb (ix3 (0 : Fin 1) r d)) = V m c main_arg0 (ix3 b R d)
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 512 + 1 * r.val = R.val; omega
  | ⟨2, _⟩ => show win0_0.index t (2 : Fin 3) * 64 + 1 * d.val = d.val; omega

/-- The value block at point `t` is batch `b` of the value array. -/
theorem vblk_read (c : Dev nD) (t : Fin cfg0.N) (j : Fin 2048) (d : Fin 64) (b : Fin 8)
    (hb : b.val = win0_2.index t (0 : Fin 3)) :
    iblk m c 1 t (ix3 (0 : Fin 1) j d) = V m c main_arg1 (ix3 b j d) := by
  obtain ⟨-, -, -, e10, e11, e12, -⟩ := idx_facts t
  show V m c main_arg1 (((cfg0.win 1).blk t).view.emb (ix3 (0 : Fin 1) j d)) = V m c main_arg1 (ix3 b j d)
  refine congrArg (V m c main_arg1) (funext fun a => Fin.ext ?_)
  match a with
  | ⟨0, _⟩ => show win0_1.index t (0 : Fin 3) * 1 + 1 * 0 = b.val; omega
  | ⟨1, _⟩ => show win0_1.index t (1 : Fin 3) * 2048 + 1 * j.val = j.val; omega
  | ⟨2, _⟩ => show win0_1.index t (2 : Fin 3) * 64 + 1 * d.val = d.val; omega

/-! ## What each point writes back -/

/-- Point `t` writes back block `t` of the context array function. -/
theorem flushed_ctx (c : Dev nD) (t : Fin cfg0.N) :
    (dats m 0 c).flushed 2 t = ((cfg0.win 2).blk t).view.read (Elt Ideal) (ctxKer (V m c main_arg0) (V m c main_arg1)) := by
  rw [flushed2]
  unfold out0_2
  rw [View.canon_unit_zero hz]
  simp only [View.ld_unit_zero (S := S1x512x64) hz, View.ld_unit_zero (S := S1x2048x64) hz]
  obtain ⟨-, -, -, -, -, -, -, -, -, e22, hb, hq⟩ := idx_facts t
  funext y
  obtain ⟨z, r, d, rfl⟩ : ∃ (z : Fin 1) (r : Fin 512) (d : Fin 64), y = ix3 z r d := ⟨y 0, y 1, y 2, eq_ix3 y⟩
  obtain rfl : z = 0 := Subsingleton.elim _ _
  have hI : ((cfg0.win 2).blk t).view.emb (ix3 (0 : Fin 1) r d)
      = ix3 (⟨win0_2.index t (0 : Fin 3), hb⟩ : Fin 8) (⟨win0_2.index t (1 : Fin 3) * 512 + r.val, by have := r.isLt; omega⟩ : Fin 2048) d :=
    funext fun a => Fin.ext (by
      match a with
      | ⟨0, _⟩ => show win0_2.index t (0 : Fin 3) * 1 + 1 * 0 = win0_2.index t (0 : Fin 3); omega
      | ⟨1, _⟩ => show win0_2.index t (1 : Fin 3) * 512 + 1 * r.val = win0_2.index t (1 : Fin 3) * 512 + r.val; omega
      | ⟨2, _⟩ => show win0_2.index t (2 : Fin 3) * 64 + 1 * d.val = d.val; omega)
  show k0_pay5 (F := Ideal) (iblk m c 0 t) (iblk m c 1 t) (ix3 (0 : Fin 1) r d)
    = ctxKer (V m c main_arg0) (V m c main_arg1) (((cfg0.win 2).blk t).view.emb (ix3 (0 : Fin 1) r d))
  refine (ctx_block (V m c main_arg0) (V m c main_arg1) (iblk m c 0 t) (iblk m c 1 t)
    (⟨win0_2.index t (0 : Fin 3), hb⟩ : Fin 8) r (⟨win0_2.index t (1 : Fin 3) * 512 + r.val, by have := r.isLt; omega⟩ : Fin 2048) d
    (fun d' => qblk_read m c t r d' _ _ rfl rfl) (fun j d' => vblk_read m c t j d' _ rfl)).trans ?_
  exact congrArg (ctxKer (V m c main_arg0) (V m c main_arg1)) hI.symm

/-- Point `t` writes back block `t` of the attention array function. -/
theorem flushed_attn (c : Dev nD) (t : Fin cfg0.N) :
    (dats m 0 c).flushed 3 t = ((cfg0.win 3).blk t).view.read (Elt Ideal) (attnKer (V m c main_arg0) (V m c main_arg1)) := by
  rw [flushed3]
  unfold out0_3
  rw [View.canon_unit_zero hz]
  simp only [View.ld_unit_zero (S := S1x512x64) hz, View.ld_unit_zero (S := S1x2048x64) hz]
  obtain ⟨-, -, -, -, -, -, e30, e31, e32, -, hb, hq⟩ := idx_facts t
  funext y
  obtain ⟨z, r, j, rfl⟩ : ∃ (z : Fin 1) (r : Fin 512) (j : Fin 2048), y = ix3 z r j := ⟨y 0, y 1, y 2, eq_ix3 y⟩
  obtain rfl : z = 0 := Subsingleton.elim _ _
  have hI : ((cfg0.win 3).blk t).view.emb (ix3 (0 : Fin 1) r j)
      = ix3 (⟨win0_2.index t (0 : Fin 3), hb⟩ : Fin 8) (⟨win0_2.index t (1 : Fin 3) * 512 + r.val, by have := r.isLt; omega⟩ : Fin 2048) j :=
    funext fun a => Fin.ext (by
      match a with
      | ⟨0, _⟩ => show win0_3.index t (0 : Fin 3) * 1 + 1 * 0 = win0_2.index t (0 : Fin 3); omega
      | ⟨1, _⟩ => show win0_3.index t (1 : Fin 3) * 512 + 1 * r.val = win0_2.index t (1 : Fin 3) * 512 + r.val; omega
      | ⟨2, _⟩ => show win0_3.index t (2 : Fin 3) * 2048 + 1 * j.val = j.val; omega)
  show k0_pay4 (F := Ideal) (iblk m c 0 t) (iblk m c 1 t) (ix3 (0 : Fin 1) r j)
    = attnKer (V m c main_arg0) (V m c main_arg1) (((cfg0.win 3).blk t).view.emb (ix3 (0 : Fin 1) r j))
  refine (attn_block (V m c main_arg0) (V m c main_arg1) (iblk m c 0 t) (iblk m c 1 t)
    (⟨win0_2.index t (0 : Fin 3), hb⟩ : Fin 8) r (⟨win0_2.index t (1 : Fin 3) * 512 + r.val, by have := r.isLt; omega⟩ : Fin 2048) j
    (fun d' => qblk_read m c t r d' _ _ rfl rfl) (fun j' d' => vblk_read m c t j' d' _ rfl)).trans ?_
  exact congrArg (attnKer (V m c main_arg0) (V m c main_arg1)) hI.symm

/-! ## The blocks cover the arrays -/

/-- An index of the context array is in point `t`'s block iff each coordinate is in the block's range. -/
theorem mem_ctx (t : Fin cfg0.N) (i : S8x2048x64.Idx) :
    i ∈ ((cfg0.win 2).blk t).view.set ↔ ∀ a : Fin 3, win0_2.index t a * S1x512x64.size a ≤ (i a).val ∧ (i a).val < win0_2.index t a * S1x512x64.size a + S1x512x64.size a := by
  show i ∈ ((View.whole main_v0_0).slice (win0_2.rect t)).set ↔ _
  rw [View.set_slice_whole, Rect.mem_set_unit]
  exact Iff.rfl

/-- An index of the attention array is in point `t`'s block iff each coordinate is in the block's range. -/
theorem mem_attn (t : Fin cfg0.N) (i : S8x2048x2048.Idx) :
    i ∈ ((cfg0.win 3).blk t).view.set ↔ ∀ a : Fin 3, win0_3.index t a * S1x512x2048.size a ≤ (i a).val ∧ (i a).val < win0_3.index t a * S1x512x2048.size a + S1x512x2048.size a := by
  show i ∈ ((View.whole main_v0_1).slice (win0_3.rect t)).set ↔ _
  rw [View.set_slice_whole, Rect.mem_set_unit]
  exact Iff.rfl

/-- Every index of the context array is in the block of the point (b, R / 512). -/
theorem cover_ctx (i : S8x2048x64.Idx) : ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_ctx]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 64 ≤ (i 2).val ∧ (i 2).val < win0_2.index t (2 : Fin 3) * 64 + 64; omega

/-- Every index of the attention array is in the block of the point (b, R / 512). -/
theorem cover_attn (i : S8x2048x2048.Idx) : ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  obtain ⟨-, -, -, -, -, -, e30, e31, e32, -⟩ := idx_facts t
  have q0 : win0_2.index t (0 : Fin 3) = (i 0).val := congrFun ht 0
  have q1 : win0_2.index t (1 : Fin 3) = (i 1).val / 512 := congrFun ht 1
  refine ⟨t, flush0_3 t, ?_⟩
  rw [mem_attn]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 2048 ≤ (i 2).val ∧ (i 2).val < win0_3.index t (2 : Fin 3) * 2048 + 2048; omega

/-! ## The arrays after the run, and the run -/

/-- The context array after the run. -/
theorem final_ctx (c : Dev nD) : (dats m 0 c).arrAt 2 cfg0.N = ctxKer (V m c main_arg0) (V m c main_arg1) :=
  (dats m 0 c).arrAt_eq_of_cover 2 (ctxKer (V m c main_arg0) (V m c main_arg1)) (fun t _ => flushed_ctx m c t) cover_ctx

/-- The attention array after the run. -/
theorem final_attn (c : Dev nD) : (dats m 0 c).arrAt 3 cfg0.N = attnKer (V m c main_arg0) (V m c main_arg1) :=
  (dats m 0 c).arrAt_eq_of_cover 3 (attnKer (V m c main_arg0) (V m c main_arg1)) (fun t _ => flushed_attn m c t) cover_attn

/-- The kernel's run, read: both result arrays at the kernel-form functions of the argument arrays, the arguments unchanged. -/
theorem run : θ_run defs (onTc (τ := τ) (main (F := Ideal))) ⟨m, fun _ => 0, ρ⟩ fun r => ∀ c : Dev nD,
      r.2.mem ((c : Thread nD τ).loc main_v0_0) = ctxKer (m ((c : Thread nD τ).loc main_arg0)) (m ((c : Thread nD τ).loc main_arg1))
      ∧ r.2.mem ((c : Thread nD τ).loc main_v0_1) = attnKer (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_ctx m c), (h c).2.1.trans (final_attn m c), (h c).2.2.1, (h c).2.2.2⟩)
    (run_blocks m ρ)

end Cert.KernelIdeal.Blocks

end
-- ==== Proof.RefSpec.lean ====
/-
  The reference program's two results are the reference-form arrays of Proof/Spec.lean.

  Read one operation at a time: the score at (b, r, j) is the sum over the 64 features; the row maximum is the
  fold of `max` over the 2048 keys from -∞, taken once more against -∞; the numerators are the exponentials of
  the scores less that maximum; the denominator is zero plus their sum; the attention array is the quotient and
  the context array its product with the value array over the keys.
-/
import proofs.«168999_j14869176779206_2_alg».proof.Proof.Gen.ReferenceIdeal.Read
import proofs.«168999_j14869176779206_2_alg».proof.Proof.Spec

noncomputable section

namespace Cert.ReferenceIdeal.RefSpec

open Cert.ReferenceIdeal Cert.ReferenceIdeal.Gen Cert.ReferenceIdeal.Read
open Idealize.ShloMosaic Idealize.ShloMosaic.ValueIdx Cert.Attn

/-- The score at (b, r, j). -/
theorem score_at (Q V : QV.Idx → EReal) (b : Fin 8) (r j : Fin 2048) :
    val_main_v0 (F := Ideal) Q V (ix3 b r j) = srow Q V b r j := by
  rw [val_main_v0_apply]
  unfold srow
  refine Finset.sum_congr rfl fun k _ => ?_
  have el : lidx_main_v0 (ix3 b r j) k = ix3 b r k :=
    funext fun a => Fin.ext (by match a with | ⟨0, _⟩ => rfl | ⟨1, _⟩ => rfl | ⟨2, _⟩ => rfl)
  have er : ridx_main_v0 (ix3 b r j) k = ix3 b j k :=
    funext fun a => Fin.ext (by match a with | ⟨0, _⟩ => rfl | ⟨1, _⟩ => rfl | ⟨2, _⟩ => rfl)
  rw [el, er]

/-- The key axis of the score array reduces away. -/
theorem keys_reduce : S8x2048x2048.Reduces [2] S8x2048 := by decide

/-- Row (b, r) with key `k` put back on the reduced axis is (b, r, k). -/
theorem lift_row (b : Fin 8) (r : Fin 2048) (k : Fin (S8x2048x2048.size 2)) :
    keys_reduce.lift (ix2 b r) k = ix3 b r (⟨k.val, k.isLt⟩ : Fin 2048) := by
  funext c; apply Fin.ext
  match c with
  | ⟨0, _⟩ => rfl
  | ⟨1, _⟩ => rfl
  | ⟨2, _⟩ => rfl

/-- The row maximum at (b, r). -/
theorem rowmax_at (Q V : QV.Idx → EReal) (b : Fin 8) (r : Fin 2048) :
    val_main_v1 (F := Ideal) Q V (ix2 b r) = rmax (srow Q V b r) := by
  unfold val_main_v1
  refine (Host.reduce_eq_fold_single (FloatOps.maximumf (F := Ideal) (φ := .f32))
    (val_main_v0 (F := Ideal) Q V : FVec Ideal S8x2048x2048 .f32) (val_main_cst (F := Ideal) : FVec Ideal S_ .f32)
    reducesTo_S8x2048x2048_S8x2048_d2 keys_reduce h_S_ (ix2 b r)).trans ?_
  unfold rmax
  exact congrArg (fun f : Fin 2048 → EReal => (Finset.univ : Finset (Fin 2048)).fold max (Ideal.ofBits .f32 0xFF800000#32) f)
    (funext fun k => (congrArg (val_main_v0 (F := Ideal) Q V) (lift_row b r k)).trans (score_at Q V b r ⟨k.val, k.isLt⟩))

/-- The numerator at (b, r, j). -/
theorem num_at (Q V : QV.Idx → EReal) (b : Fin 8) (r j : Fin 2048) :
    val_main_v7 (F := Ideal) Q V (ix3 b r j) = numR (srow Q V b r) j := by
  rw [val_main_v7_apply, val_main_v6_apply, val_main_v5_apply, val_main_v4_apply, val_main_v3_apply, val_main_v2_apply,
    val_main_cst_0_apply]
  have e : idx_main_v4 (idx_main_v5 (ix3 b r j)) = ix2 b r :=
    funext fun a => Fin.ext (by match a with | ⟨0, _⟩ => rfl | ⟨1, _⟩ => rfl)
  rw [e, rowmax_at, score_at]
  rfl

/-- The denominator at (b, r). -/
theorem den_at (Q V : QV.Idx → EReal) (b : Fin 8) (r : Fin 2048) :
    val_main_v8 (F := Ideal) Q V (ix2 b r) = denR (srow Q V b r) := by
  rw [val_main_v8_apply]
  unfold denR
  refine congrArg₂ (· + ·) rfl (Finset.sum_congr rfl fun k _ => ?_)
  have e : idx_main_v8 (ix2 b r) k = ix3 b r k :=
    funext fun a => Fin.ext (by match a with | ⟨0, _⟩ => rfl | ⟨1, _⟩ => rfl | ⟨2, _⟩ => rfl)
  rw [e]
  exact num_at Q V b r k

/-- The reference's attention array is the reference form. -/
theorem attn_eq (Q V : QV.Idx → EReal) : val_main_v11 (F := Ideal) Q V = attnRef Q V := by
  funext i
  obtain ⟨b, r, j, rfl⟩ : ∃ (b : Fin 8) (r : Fin 2048) (j : Fin 2048), i = ix3 b r j := ⟨i 0, i 1, i 2, eq_ix3 i⟩
  rw [val_main_v11_apply, val_main_v10_apply, val_main_v9_apply]
  have e : idx_main_v9 (idx_main_v10 (ix3 b r j)) = ix2 b r :=
    funext fun a => Fin.ext (by match a with | ⟨0, _⟩ => rfl | ⟨1, _⟩ => rfl)
  rw [e, den_at, num_at]
  rfl

/-- The reference's context array is the reference form. -/
theorem ctx_eq (Q V : QV.Idx → EReal) : val_main_v12 (F := Ideal) Q V = ctxRef Q V := by
  funext i
  obtain ⟨b, r, d, rfl⟩ : ∃ (b : Fin 8) (r : Fin 2048) (d : Fin 64), i = ix3 b r d := ⟨i 0, i 1, i 2, eq_ix3 i⟩
  rw [val_main_v12_apply]
  show _ = ctxR (srow Q V b r) (vcol V b d)
  unfold ctxR
  refine Finset.sum_congr rfl fun k _ => ?_
  have el : lidx_main_v12 (ix3 b r d) k = ix3 b r k :=
    funext fun a => Fin.ext (by match a with | ⟨0, _⟩ => rfl | ⟨1, _⟩ => rfl | ⟨2, _⟩ => rfl)
  have er : ridx_main_v12 (ix3 b r d) k = ix3 b k d :=
    funext fun a => Fin.ext (by match a with | ⟨0, _⟩ => rfl | ⟨1, _⟩ => rfl | ⟨2, _⟩ => rfl)
  rw [el, er, attn_eq]
  rfl

end Cert.ReferenceIdeal.RefSpec

end
-- ==== Proof.Finite.lean ====
/-
  The precondition read back: every entry of the two argument arrays is a real number, and so the reference-form
  arrays of Proof/Spec.lean are the kernel-form ones.

  The precondition is `all (|Q| < +∞) ∧ all (|V| < +∞)`. An `and` of two words is one iff both are; a reduction by
  `and` over every axis is one iff every element is; and `max x (-x) < ⊤` on the extended reals says `x` is neither
  infinity.
-/
import proofs.«168999_j14869176779206_2_alg».proof.Pre_finite_inputs
import proofs.«168999_j14869176779206_2_alg».proof.Proof.Gen.Pre_finite_inputs
import proofs.«168999_j14869176779206_2_alg».proof.Proof.Spec
import Idealize.ShloMosaic.Lib.ReduceAll
import Idealize.ShloMosaic.Lib.ValueIdx
import Idealize.ShloMosaic.PureOps.Ideal.Laws

noncomputable section

namespace Cert.Attn.Finite

open Idealize.ShloMosaic Cert.Pre_finite_inputs Cert.Attn

/-- The scalar shape has one index. -/
instance : Subsingleton S_.Idx := ⟨fun a b => funext fun d => d.elim0⟩

theorem ofBits_posinf : Ideal.ofBits .f32 0x7F800000#32 = (⊤ : EReal) := by
  simp [Ideal.ofBits, Ideal.ieee]

/-- An extended real whose absolute value compares below the pattern of +∞ is neither infinity. -/
theorem real_of_lt (x : EReal) (h : Ideal.cmp .olt (max x (-x)) (Ideal.ofBits .f32 0x7F800000#32) = 1#1) : x ≠ ⊤ ∧ x ≠ ⊥ := by
  rw [ofBits_posinf] at h
  have hlt : max x (-x) < ⊤ := by
    by_contra hn
    have e : Ideal.cmp .olt (max x (-x)) ⊤ = BitVec.ofBool (decide (max x (-x) < ⊤)) := rfl
    rw [e, decide_eq_false hn] at h
    exact absurd h (by decide)
  obtain ⟨h1, h2⟩ := max_lt_iff.mp hlt
  refine ⟨ne_of_lt h1, fun hx => ?_⟩
  rw [hx, EReal.neg_bot] at h2
  exact lt_irrefl _ h2

/-- Under the precondition neither argument array has an infinite entry. -/
theorem finite_args (Q V : FVec Ideal S8x2048x64 .f32) (h : fn (F := Ideal) Q V = (fun _ => 1#1)) :
    (∀ i, Q i ≠ ⊤ ∧ Q i ≠ ⊥) ∧ (∀ i, V i ≠ ⊤ ∧ V i ≠ ⊥) := by
  have h0 := congrFun h ValueIdx.ix0
  dsimp only [fn] at h0
  obtain ⟨hq, hv⟩ := IntOp.andi_eq_one.1 h0
  exact ⟨fun i => real_of_lt (Q i) (Host.reduce_andi_all _ _ _ _ _ hq i),
    fun i => real_of_lt (V i) (Host.reduce_andi_all _ _ _ _ _ hv i)⟩

/-- On arrays without infinite entries the reference-form context array is the kernel-form one. -/
theorem ctxRef_eq_ctxKer (Q V : QV.Idx → EReal) (hQ : ∀ i, Q i ≠ ⊤ ∧ Q i ≠ ⊥) (hV : ∀ i, V i ≠ ⊤ ∧ V i ≠ ⊥) :
    ctxRef Q V = ctxKer Q V := by
  obtain ⟨Qr, rfl⟩ := exists_real Q hQ
  obtain ⟨Vr, rfl⟩ := exists_real V hV
  exact (ctxKer_eq_ctxRef Qr Vr).symm

/-- On arrays without infinite entries the reference-form attention array is the kernel-form one. -/
theorem attnRef_eq_attnKer (Q V : QV.Idx → EReal) (hQ : ∀ i, Q i ≠ ⊤ ∧ Q i ≠ ⊥) (hV : ∀ i, V i ≠ ⊤ ∧ V i ≠ ⊥) :
    attnRef Q V = attnKer Q V := by
  obtain ⟨Qr, rfl⟩ := exists_real Q hQ
  obtain ⟨Vr, rfl⟩ := exists_real V hV
  exact (attnKer_eq_attnRef Qr Vr).symm

end Cert.Attn.Finite

end
-- ==== Proof.lean ====
/-
  Softmax attention without scale or mask, a Pallas kernel against its jnp reference, over the extended reals.

  Both programs take a query array and a value array (8 × 2048 × 64) and return the context array (8 × 2048 × 64) and
  the attention array (8 × 2048 × 2048). For batch `b` and query row `R` the scores are `s j = ∑ d, Q (b, R, d) * V (b, j, d)`,
  the numerators `e j = exp (s j - max s)`, the denominator `L = ∑ j, e j`. The kernel multiplies by the reciprocal:
  attention `e j * (1 / L)`, context `(∑ j, e j * V (b, j, d)) * (1 / L)`, computed per block of 512 query rows on a grid
  of 8 × 4 points; the reference divides first: attention `e j / L`, context `∑ j, (e j / L) * V (b, j, d)`.

  The kernel's side: what the body stores at an element (Proof/Body.lean), each point's block as a block of one
  whole-array function and the blocks' cover of both arrays (Proof/Blocks.lean), over the generated frame run. The
  reference's side: its generated run, read one operation at a time, is the reference-form function (Proof/RefSpec.lean).
  The two forms agree when every input is a real number (Proof/RowMath.lean, Proof/Spec.lean): the row maximum is then
  one of the scores, the numerators and the denominator are positive reals, division by `L` is the product with `1 / L`,
  and the context entries agree by distributivity in ℝ. That the inputs are real is the precondition read back
  (Proof/Finite.lean). Nothing was rewritten when the kernel was printed for the extended reals, so that claim is `True`.
-/
import proofs.«168999_j14869176779206_2_alg».proof.Defs
import proofs.«168999_j14869176779206_2_alg».proof.Proof.Gen.Kernel
import proofs.«168999_j14869176779206_2_alg».proof.Proof.Gen.Kernel.Frame
import proofs.«168999_j14869176779206_2_alg».proof.Proof.Gen.KernelIdeal
import proofs.«168999_j14869176779206_2_alg».proof.Proof.Gen.KernelIdeal.Frame
import proofs.«168999_j14869176779206_2_alg».proof.Proof.Gen.KernelIdeal.Value
import proofs.«168999_j14869176779206_2_alg».proof.Proof.Gen.ReferenceIdeal
import proofs.«168999_j14869176779206_2_alg».proof.Proof.Gen.ReferenceIdeal.Run
import proofs.«168999_j14869176779206_2_alg».proof.Proof.Gen.ReferenceIdeal.Read
import proofs.«168999_j14869176779206_2_alg».proof.Proof.Gen.Pre_finite_inputs
import proofs.«168999_j14869176779206_2_alg».proof.Proof.Blocks
import proofs.«168999_j14869176779206_2_alg».proof.Proof.RefSpec
import proofs.«168999_j14869176779206_2_alg».proof.Proof.Finite
import Idealize.ShloMosaic.Adequacy
import Idealize.ShloMosaic.Init

noncomputable section

namespace Cert.Proof

open Idealize.ShloMosaic Idealize.ShloMosaic.TcCoe Idealize.SL.Sem Cert.Attn

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both runs end, from memories agreeing on the arguments, with the kernel-form arrays of the arguments: the kernel's by
    its blocks, the reference's because its reference-form arrays are the kernel-form ones on real inputs. -/
theorem algebraic : Cert.algebraic_KernelIdeal_ReferenceIdeal := by
  intro m ρ m' ρ' hpre hagree
  refine ⟨fun c => ctxKer (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => attnKer (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Blocks.run m ρ, ?_⟩
  refine (θ_run Cert.ReferenceIdeal.defs _ _).mono (fun _ h c => ?_) (Cert.ReferenceIdeal.Value.run (F := Ideal) m' ρ')
  obtain ⟨hQ, hV⟩ := Cert.Attn.Finite.finite_args _ _ (hpre c)
  refine ⟨(h c).1.trans ?_, (h c).2.1.trans ?_, (h c).2.2.1, (h c).2.2.2⟩
  · rw [Cert.ReferenceIdeal.Read.val_main_v12_eq, Cert.ReferenceIdeal.RefSpec.ctx_eq, (hagree c).1, (hagree c).2]
    exact Cert.Attn.Finite.ctxRef_eq_ctxKer _ _ hQ hV
  · rw [Cert.ReferenceIdeal.Read.val_main_v11_eq, Cert.ReferenceIdeal.RefSpec.attn_eq, (hagree c).1, (hagree c).2]
    exact Cert.Attn.Finite.attnRef_eq_attnKer _ _ hQ hV

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
